-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x2048 : Shape := ⟨2, ![2048, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn {F : FTy → Type} [FloatOps F] (main_arg0 : FVec F S8192x2048 .f32) (main_arg1 : FVec F S2048x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  main_v8
-- ==== Kernel.lean ====
abbrev S8192x2048 : Shape := ⟨2, ![8192, 2048]⟩
abbrev S2048x2048 : Shape := ⟨2, ![2048, 2048]⟩
abbrev S256x2048 : Shape := ⟨2, ![256, 2048]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048x2048, .f32⟩
  | .hbm, ⟨3, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S2048x2048, .f32⟩
  | .local _ .vmem, ⟨3, _⟩ => ⟨S256x2048, .f32⟩
  | .local _ .vmem, ⟨4, _⟩ => ⟨S256x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S2048x2048_S2048x2048_1_0 : S2048x2048.Transposes [1, 0] S2048x2048
  inb_S256x2048_S256x2048_0_0 : ∀ a, (![0, 0] : Fin 2 → Nat) a + S256x2048.size a ≤ S256x2048.size a
  h_S256x2048 : 0 < S256x2048.numel
  bitsLt_bf16_f32 : FTy.bits .bf16 < FTy.bits .f32
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  dot_S256x2048_S2048x2048_S256x2048_1_0_0_1_n_n_wf : DotDims.WF S256x2048 S2048x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S8192x2048.size a
  hwx0_0 : ∀ i : grid0.Coords, EltTy.bits .f32 = 32 ∨ (Rect.block (s := S8192x2048) S256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .f32 = 32 ∨ (Rect.block (s := S2048x2048) S2048x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S8192x2048.size a
  hwx0_2 : ∀ i : grid0.Coords, EltTy.bits .f32 = 32 ∨ (Rect.block (s := S8192x2048) S256x2048.size (cc0_transform_2 i) (hinb0_2 i)).WholeWords (EltTy.packing .f32)

variable [Facts₀]

def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S_, .f32⟩
  | .hbm, ⟨3, _⟩ => ⟨S2048x2048, .f32⟩
  | .hbm, ⟨4, _⟩ => ⟨S2048x2048, .i1⟩
  | .hbm, ⟨5, _⟩ => ⟨S_, .f32⟩
  | .hbm, ⟨6, _⟩ => ⟨S_, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_cst_1 : Ref sig .tc := ⟨.hbm, 6, rfl⟩
abbrev main_call0_v0 : Ref sig .tc := ⟨.hbm, 7, rfl⟩
abbrev main_call0_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩

abbrev nD : Nat := 1
abbrev τ : Topo := Topo.v7x

variable {F : FTy → Type} [FloatOps F]

class Facts₀ : Prop where
  bcast_S_S2048x2048 : S_.BroadcastsInDim S2048x2048 (![] : Fin 0 → Fin S2048x2048.rank)
  transposes_S2048x2048_S2048x2048_1_0 : S2048x2048.Transposes [1, 0] S2048x2048
  dot_S8192x2048_S2048x2048_S8192x2048_1_0_0_1_n_n_wf : DotDims.WF S8192x2048 S2048x2048 S8192x2048 [1] [0] [0] [1] [] []

variable [Facts₀]

def dot_S8192x2048_S2048x2048_S8192x2048_1_0_0_1_n_n : DotDims S8192x2048 S2048x2048 S8192x2048 where
  lhsContracting := [1]
  rhsContracting := [0]
  lhsNonContracting := [0]
  rhsNonContracting := [1]
  lhsBatch := []
  rhsBatch := []
  wf := dot_S8192x2048_S2048x2048_S8192x2048_1_0_0_1_n_n_wf

class Facts : Prop extends Facts₀ where

variable [Facts]
-- ==== Proof.LibMatmul.lean ====
/-
  A plain matrix product read at an index. For a product of an [m, k] by a [k, n] matrix that contracts the
  left operand's axis 1 with the right operand's axis 0 (no batch axes), the entry at (a, b) is the sum over c of
  A[a, c] · B[c, b] — both for the host's dot_general and for the in-kernel matmul into a zero accumulator, at the
  ideal values (extended reals, exact operations; a change of float format is the identity there).
-/
import Idealize.ShloMosaic.Lib.ValueIdx
import Idealize.ShloMosaic.PureOps.Ideal.Laws

namespace Cert.MatProd

open Idealize.ShloMosaic Idealize.ShloMosaic.ValueIdx

variable {m k n : ℕ}

/-- The operand indices of a plain product at output index (a, b) and contraction coordinate c are (a, c) and (c, b). -/
theorem lhsIdx_plain (w : DotDims.WF ⟨2, ![m, k]⟩ ⟨2, ![k, n]⟩ ⟨2, ![m, n]⟩ [1] [0] [0] [1] [] [])
    (a : Fin m) (b : Fin n) (c : Fin k) :
    (⟨[1], [0], [0], [1], [], [], w⟩ : DotDims ⟨2, ![m, k]⟩ ⟨2, ![k, n]⟩ ⟨2, ![m, n]⟩).lhsIdx (ix2 a b)
      ((contrEquiv1 (⟨[1], [0], [0], [1], [], [], w⟩ : DotDims ⟨2, ![m, k]⟩ ⟨2, ![k, n]⟩ ⟨2, ![m, n]⟩) k rfl rfl).symm c) = ix2 a c := by
  have c2 := contrEquiv1_symm_val (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.lhsIdx]; rfl
  | ⟨1, _⟩ => simp [DotDims.lhsIdx]; exact c2

theorem rhsIdx_plain (w : DotDims.WF ⟨2, ![m, k]⟩ ⟨2, ![k, n]⟩ ⟨2, ![m, n]⟩ [1] [0] [0] [1] [] [])
    (a : Fin m) (b : Fin n) (c : Fin k) :
    (⟨[1], [0], [0], [1], [], [], w⟩ : DotDims ⟨2, ![m, k]⟩ ⟨2, ![k, n]⟩ ⟨2, ![m, n]⟩).rhsIdx (ix2 a b)
      ((contrEquiv1 (⟨[1], [0], [0], [1], [], [], w⟩ : DotDims ⟨2, ![m, k]⟩ ⟨2, ![k, n]⟩ ⟨2, ![m, n]⟩) k rfl rfl).symm c) = ix2 c b := by
  have c2 := contrEquiv1_symm_val (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.rhsIdx]; exact c2
  | ⟨1, _⟩ => simp [DotDims.rhsIdx]; rfl

/-- The host's dot_general of a plain product, at (a, b): Σ_c A[a, c] · B[c, b]. -/
theorem dotGeneral_apply {φ₁ φ₂ : FTy} (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims _ _ _) prec A B (ix2 a b) = ∑ c : Fin k, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  rw [lhsIdx_plain w a b c, rhsIdx_plain w a b c]

/-- The in-kernel matmul of a plain product into a zero accumulator, at (a, b): the same sum. -/
theorem matmul_zero_apply {φ₁ φ₂ : FTy} (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    FloatOps.matmul (⟨[1], [0], [0], [1], [], [], w⟩ : DotDims _ _ _) prec A B (constant ⟨2, ![m, n]⟩ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  rw [lhsIdx_plain w a b c, rhsIdx_plain w a b c]

end Cert.MatProd
-- ==== Proof.Spec.lean ====
/-
  The binarized dense layer as one function of its two argument arrays.

  X is an [8192, 2048] array of activations and W a [2048, 2048] array of weights, W[j, k] the weight from
  input feature k to output feature j. Each weight is replaced by its sign, +1 where the weight is at least
  zero and −1 where it is below zero, and the layer is the product of X with the transposed sign matrix:

      out[r, j] = Σ_k X[r, k] · sgn (W[j, k]).

  Everything is read on the extended reals, where a change of float format is the identity and sums and
  products are exact.
-/
import Idealize.ShloMosaic.PureOps.Ideal
import Idealize.ShloMosaic.Lib.ValueIdx

noncomputable section

namespace Cert.SignDense

open Idealize.ShloMosaic Idealize.ShloMosaic.ValueIdx

/-- The sign of one weight: the comparison "w ≥ 0" chooses between the words of 1.0 and of −1.0. -/
def sgn (w : Ideal .f32) : Ideal .f32 :=
  Scalar.select (FloatOps.cmpf .oge w (FloatOps.ofBits .f32 0x00000000#32))
    (FloatOps.ofBits .f32 0x3F800000#32) (FloatOps.ofBits .f32 0xBF800000#32)

/-- One entry of the layer: row r of the activations against row j of the weights' signs. -/
def entry (X : FVec Ideal ⟨2, ![8192, 2048]⟩ .f32) (W : FVec Ideal ⟨2, ![2048, 2048]⟩ .f32)
    (r : Fin 8192) (j : Fin 2048) : Ideal .f32 :=
  ∑ k : Fin 2048, X (ix2 r k) * sgn (W (ix2 j k))

/-- The whole result array, index by index. -/
def layer (X : FVec Ideal ⟨2, ![8192, 2048]⟩ .f32) (W : FVec Ideal ⟨2, ![2048, 2048]⟩ .f32) :
    FVec Ideal ⟨2, ![8192, 2048]⟩ .f32 :=
  fun i => entry X W (i 0) (i 1)

theorem layer_ix2 (X : FVec Ideal ⟨2, ![8192, 2048]⟩ .f32) (W : FVec Ideal ⟨2, ![2048, 2048]⟩ .f32)
    (r : Fin 8192) (j : Fin 2048) : layer X W (ix2 r j) = entry X W r j := rfl

end Cert.SignDense

end
-- ==== Proof.BlockValue.lean ====
/-
  What the kernel body computes for one block, read at an index.

  The body loads a [256, 2048] block x of activations and the whole [2048, 2048] array wt of transposed
  weights, replaces every entry of wt by its sign (+1 where it is at least zero, −1 elsewhere) and stores the
  matrix product of x with that sign matrix. Both narrowing casts are the identity on the extended reals, the
  reshape is to the same shape, and the product is accumulated into zeros, so the entry at (p, q) is

      Σ_k x[p, k] · sgn (wt[k, q]).
-/
import proofs.«180889_j19164144075028_1_alg».proof.Proof.Gen.KernelIdeal.Skeleton
import proofs.«180889_j19164144075028_1_alg».proof.Proof.LibMatmul
import proofs.«180889_j19164144075028_1_alg».proof.Proof.Spec
import Idealize.ShloMosaic.Lib.Pipeline.Value
import Idealize.ShloMosaic.Lib.ValueIdx

noncomputable section

namespace Cert.KernelIdeal.BlockValue

open Cert.KernelIdeal Cert.KernelIdeal.Gen Idealize.ShloMosaic Idealize.ShloMosaic.ValueIdx Cert.SignDense

/-- The stored block at (p, q): row p of the loaded activations against column q of the signs of the loaded
    transposed weights. -/
theorem pay_apply (x0 : FVec Ideal S256x2048 .f32) (x1 : FVec Ideal S2048x2048 .f32) (p : Fin 256) (q : Fin 2048) :
    k0_pay1 (F := Ideal) x0 x1 (ix2 p q) = ∑ k : Fin 2048, x0 (ix2 p k) * sgn (x1 (ix2 k q)) := by
  unfold k0_pay1
  refine (Cert.MatProd.matmul_zero_apply dot_S256x2048_S2048x2048_S256x2048_1_0_0_1_n_n_wf none _ _ p q).trans ?_
  refine Finset.sum_congr rfl fun k _ => ?_
  rw [shapeCast_self]
  rfl

/-- The same entry when the loaded blocks are known against whole arrays: if row p of the activation block is row
    r of X, and column q of the loaded weights is row q of W (the weights were transposed before the kernel ran),
    the stored entry is the layer's entry (r, q). -/
theorem block_entry (X : FVec Ideal ⟨2, ![8192, 2048]⟩ .f32) (W : FVec Ideal ⟨2, ![2048, 2048]⟩ .f32)
    (x0 : FVec Ideal S256x2048 .f32) (x1 : FVec Ideal S2048x2048 .f32) (r : Fin 8192) (p : Fin 256) (q : Fin 2048)
    (h0 : ∀ k : Fin 2048, x0 (ix2 p k) = X (ix2 r k)) (h1 : ∀ k : Fin 2048, x1 (ix2 k q) = W (ix2 q k)) :
    k0_pay1 (F := Ideal) x0 x1 (ix2 p q) = entry X W r q := by
  refine (pay_apply x0 x1 p q).trans ?_
  unfold entry
  exact Finset.sum_congr rfl fun k _ => by rw [h0 k, h1 k]

end Cert.KernelIdeal.BlockValue

end
-- ==== Proof.ArrayValue.lean ====
/-
  From blocks to the whole array.

  The grid has 32 points. At point t the kernel reads rows 256·t … 256·t + 255 of the activations X and the whole
  array of transposed weights (written before the kernel starts: its entry (k, q) is W[q, k]), and writes rows
  256·t … 256·t + 255 of the result. So the entry the body stores at (p, q) of its block is the layer's entry
  (256·t + p, q); the 32 row bands tile the result array (row r lies in band r / 256), and the array after the run
  is the layer, index by index.
-/
import proofs.«180889_j19164144075028_1_alg».proof.Proof.Gen.KernelIdeal.Value
import proofs.«180889_j19164144075028_1_alg».proof.Proof.BlockValue
import Idealize.ShloMosaic.Lib.StableHlo.Run
import Idealize.ShloMosaic.Lib.Pipeline.Value
import Idealize.ShloMosaic.Lib.ValueIdx

noncomputable section

namespace Cert.KernelIdeal.ArrayValue

open Cert.KernelIdeal Cert.KernelIdeal.Gen Idealize.ShloMosaic Idealize.ShloMosaic.TcCoe Idealize.SL.Sem
open Idealize.ShloMosaic.StableHlo Idealize.ShloMosaic.ValueIdx Cert.SignDense
open Idealize.ShloMosaic.Pipeline (Dat)

variable (m : (ℓ : Loc nD τ sig) → Buf (Elt Ideal) ℓ) (ρ : Dev nD → PrngReg)

theorem zero_off : (![0, 0] : Fin 2 → Nat) = fun _ => 0 := funext fun a => by fin_cases a <;> rfl

/-- The block index of each window at each of the 32 points: the activations and the result move down one band of
    rows per point, the weights stay. -/
theorem idx_facts : ∀ t : Fin cfg0.N, win0_2.index t (0 : Fin 2) = t.val ∧ win0_2.index t (1 : Fin 2) = 0
    ∧ win0_0.index t (0 : Fin 2) = t.val ∧ win0_0.index t (1 : Fin 2) = 0
    ∧ win0_1.index t (0 : Fin 2) = 0 ∧ win0_1.index t (1 : Fin 2) = 0 :=
  (by decide +kernel : ∀ t : Fin grid0.N, _)

/-- The second window's array when the kernel starts is the transposed weights. -/
theorem weights_transposed (c : Dev nD) :
    (V m c main_v0 : S2048x2048.Idx → EReal)
      = transpose S2048x2048 [1, 0] (m ((c : Thread nD τ).loc main_arg1)) transposes_S2048x2048_S2048x2048_1_0 := by
  dsimp only [Gen.V, Gen.hostOps0]; after_results

/-- The activation block at point t, at (p, k), is X[256·t + p, k]. -/
theorem act_block (c : Dev nD) (t : Fin cfg0.N) (p : Fin 256) (k : Fin 2048) (r : Fin 8192) (hr : r.val = t.val * 256 + p.val) :
    iblk m c 0 t (ix2 p k) = m ((c : Thread nD τ).loc main_arg0) (ix2 r k) := by
  obtain ⟨e0, e1, e2, e3, e4, e5⟩ := idx_facts t
  show V m c main_arg0 (((cfg0.win 0).blk t).view.emb (ix2 p k)) = _
  rw [V_main_arg0]
  refine congrArg _ (funext fun a => Fin.ext ?_)
  match a with
  | ⟨0, _⟩ => show win0_0.index t (0 : Fin 2) * 256 + 1 * p.val = r.val; omega
  | ⟨1, _⟩ => show win0_0.index t (1 : Fin 2) * 2048 + 1 * k.val = k.val; omega

/-- The weight block at any point, at (k, q), is W[q, k]. -/
theorem weight_block (c : Dev nD) (t : Fin cfg0.N) (k q : Fin 2048) :
    iblk m c 1 t (ix2 k q) = m ((c : Thread nD τ).loc main_arg1) (ix2 q k) := by
  obtain ⟨e0, e1, e2, e3, e4, e5⟩ := idx_facts t
  have hemb : ((cfg0.win 1).blk t).view.emb (ix2 k q) = (ix2 k q : S2048x2048.Idx) := by
    funext a; apply Fin.ext
    match a with
    | ⟨0, _⟩ => show win0_1.index t (0 : Fin 2) * 2048 + 1 * k.val = k.val; omega
    | ⟨1, _⟩ => show win0_1.index t (1 : Fin 2) * 2048 + 1 * q.val = q.val; omega
  show V m c main_v0 (((cfg0.win 1).blk t).view.emb (ix2 k q)) = _
  rw [hemb, weights_transposed]
  exact transpose_apply [1, 0] _ transposes_S2048x2048_S2048x2048_1_0 (ix2 k q) (ix2 q k) (fun b => match b with
    | ⟨0, _⟩ => rfl
    | ⟨1, _⟩ => rfl)

/-- What point t writes back is band t of the layer. -/
theorem flushed_eq (c : Dev nD) (t : Fin cfg0.N) :
    (dats m 0 c).flushed 2 t = ((cfg0.win 2).blk t).view.read (Elt Ideal)
      (layer (m ((c : Thread nD τ).loc main_arg0)) (m ((c : Thread nD τ).loc main_arg1))) := by
  rw [Value.flushed2]
  unfold out0_2
  rw [View.canon_unit_zero zero_off]
  simp only [View.ld_unit_zero (S := S256x2048) zero_off, View.ld_unit_zero (S := S2048x2048) zero_off]
  funext j
  obtain ⟨p, q, rfl⟩ : ∃ (p : Fin 256) (q : Fin 2048), j = ix2 p q := ⟨j 0, j 1, eq_ix2 j⟩
  obtain ⟨e0, e1, e2, e3, e4, e5⟩ := idx_facts t
  have hN : cfg0.N = 32 := N_0
  have hr : t.val * 256 + p.val < 8192 := by have := t.isLt; omega
  have hemb : ((cfg0.win 2).blk t).view.emb (ix2 p q) = (ix2 (⟨t.val * 256 + p.val, hr⟩ : Fin 8192) q : S8192x2048.Idx) := by
    funext a; apply Fin.ext
    match a with
    | ⟨0, _⟩ => show win0_2.index t (0 : Fin 2) * 256 + 1 * p.val = t.val * 256 + p.val; omega
    | ⟨1, _⟩ => show win0_2.index t (1 : Fin 2) * 2048 + 1 * q.val = q.val; omega
  show k0_pay1 (iblk m c 0 t) (iblk m c 1 t) (ix2 p q)
    = layer (m ((c : Thread nD τ).loc main_arg0)) (m ((c : Thread nD τ).loc main_arg1)) (((cfg0.win 2).blk t).view.emb (ix2 p q))
  rw [hemb, layer_ix2]
  exact BlockValue.block_entry _ _ (iblk m c 0 t) (iblk m c 1 t) ⟨t.val * 256 + p.val, hr⟩ p q
    (fun k => act_block m c t p k ⟨t.val * 256 + p.val, hr⟩ rfl) (fun k => weight_block m c t k q)

/-- An index is in point t's band iff each coordinate is in the band's range on its axis. -/
theorem mem_band (t : Fin cfg0.N) (i : S8192x2048.Idx) :
    i ∈ ((cfg0.win 2).blk t).view.set ↔ ∀ a : Fin 2, win0_2.index t a * S256x2048.size a ≤ (i a).val ∧ (i a).val < win0_2.index t a * S256x2048.size a + S256x2048.size a := by
  show i ∈ ((View.whole main_v1).slice (win0_2.rect t)).set ↔ _
  rw [View.set_slice_whole, Rect.mem_set_unit]
  exact Iff.rfl

/-- Every index of the result lies in the band of some point: row r in band r / 256. -/
theorem bands_cover (i : S8192x2048.Idx) :
    ∃ t : Fin cfg0.N, (cfg0.win 2).flush t = true ∧ i ∈ ((cfg0.win 2).blk t).view.set := by
  have hi0 : (i 0).val < 8192 := (i 0).isLt
  have hi1 : (i 1).val < 2048 := (i 1).isLt
  have hN : cfg0.N = 32 := N_0
  obtain ⟨t, ht⟩ : ∃ t : Fin cfg0.N, t.val = (i 0).val / 256 := ⟨⟨(i 0).val / 256, by omega⟩, rfl⟩
  obtain ⟨e0, e1, -⟩ := idx_facts t
  refine ⟨t, flush0_2 t, ?_⟩
  rw [mem_band]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 2048 ≤ (i 1).val ∧ (i 1).val < win0_2.index t (1 : Fin 2) * 2048 + 2048; omega

/-- The result array after the run is the layer of the two argument arrays. -/
theorem final (c : Dev nD) :
    (dats m 0 c).arrAt 2 cfg0.N = layer (m ((c : Thread nD τ).loc main_arg0)) (m ((c : Thread nD τ).loc main_arg1)) :=
  (dats m 0 c).arrAt_eq_of_cover 2 _ (fun t _ => flushed_eq m c t) bands_cover

/-- Every execution of the kernel's program ends with the result at the layer of the arguments, the arguments unchanged. -/
theorem run : θ_run defs (onTc (τ := τ) (main (F := Ideal))) ⟨m, fun _ => 0, ρ⟩ fun r => ∀ c : Dev nD,
      r.2.mem ((c : Thread nD τ).loc main_v1) = layer (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.ArrayValue

end
-- ==== Proof.RefValue.lean ====
/-
  The reference computes the layer.

  The reference compares W with zero, chooses between 1.0 and −1.0 entry by entry, transposes the sign matrix and
  multiplies X by it. Read at (r, j) the product is Σ_k X[r, k] · S[k, j] with S the transposed sign matrix, and
  S[k, j] is the sign of W[j, k]: the layer's entry.
-/
import proofs.«180889_j19164144075028_1_alg».proof.Proof.Gen.ReferenceIdeal.Read
import proofs.«180889_j19164144075028_1_alg».proof.Proof.Spec

noncomputable section

namespace Cert.ReferenceIdeal.RefValue

open Cert.ReferenceIdeal Cert.ReferenceIdeal.Gen Cert.ReferenceIdeal.Read Idealize.ShloMosaic Idealize.ShloMosaic.ValueIdx
open Cert.SignDense

/-- The product's left operand is read at (r, k). -/
theorem lidx_eq (r : Fin 8192) (j k : Fin 2048) : lidx_main_v5 (ix2 r j) k = ix2 r k :=
  funext fun a => Fin.ext (by match a with | ⟨0, _⟩ => rfl | ⟨1, _⟩ => rfl)

/-- The product's right operand is read at (k, j), which the transposition takes to (j, k). -/
theorem ridx_eq (r : Fin 8192) (j k : Fin 2048) : idx_main_v4 (ridx_main_v5 (ix2 r j) k) = ix2 j k :=
  funext fun a => Fin.ext (by match a with | ⟨0, _⟩ => rfl | ⟨1, _⟩ => rfl)

/-- The reference's result, as a function of its two arguments, is the layer. -/
theorem ref_eq (X : FVec Ideal S8192x2048 .f32) (W : FVec Ideal S2048x2048 .f32) :
    val_main_v5 (F := Ideal) X W = layer X W := by
  funext i
  obtain ⟨r, j, rfl⟩ : ∃ (r : Fin 8192) (j : Fin 2048), i = ix2 r j := ⟨i 0, i 1, eq_ix2 i⟩
  rw [val_main_v5_apply, layer_ix2]
  unfold entry
  refine Finset.sum_congr rfl fun k _ => ?_
  rw [val_main_v4_apply, val_main_v3_apply, val_main_v2_apply, val_main_v1_apply, val_main_v0_apply, val_main_cst_apply,
    val_main_call0_v0_apply, val_main_cst_0_apply, val_main_call0_v1_apply, val_main_cst_1_apply, lidx_eq, ridx_eq]
  rfl

end Cert.ReferenceIdeal.RefValue

end
-- ==== Proof.lean ====
/-
  A dense layer with sign-binarized weights, against its plain reference.

  X is an [8192, 2048] array of activations, W a [2048, 2048] array of weights (W[j, k] from input feature k to
  output feature j). Both programs replace each weight by its sign — +1 where the weight is at least zero, −1
  elsewhere — and multiply X by the transposed sign matrix:

      out[r, j] = Σ_k X[r, k] · sgn (W[j, k]).

  The kernel transposes W first, then in each of 32 bands of 256 rows takes signs of the transposed weights and
  multiplies; the reference takes signs of W, transposes, and multiplies once. Taking the sign entry by entry
  commutes with transposing, the bands tile the rows, and a product accumulated into zeros is the plain sum, so on
  the extended reals both results are the function above, term by term and in the same order of summation: no law
  of arithmetic beyond that is used, and the finiteness of the inputs is not needed.

  Proof/Spec.lean states the function; Proof/BlockValue.lean reads the kernel body's stored block at an index;
  Proof/ArrayValue.lean goes from the 32 bands to the whole result array; Proof/RefValue.lean reads the
  reference's result at an index. The three programs' termination and the unchanged arguments come from the
  imported generated modules.
-/
import proofs.«180889_j19164144075028_1_alg».proof.Defs
import proofs.«180889_j19164144075028_1_alg».proof.Proof.Gen.Kernel
import proofs.«180889_j19164144075028_1_alg».proof.Proof.Gen.Kernel.Skeleton
import proofs.«180889_j19164144075028_1_alg».proof.Proof.Gen.Kernel.Launch
import proofs.«180889_j19164144075028_1_alg».proof.Proof.Gen.Kernel.Points
import proofs.«180889_j19164144075028_1_alg».proof.Proof.Gen.Kernel.Frame
import proofs.«180889_j19164144075028_1_alg».proof.Proof.Gen.KernelIdeal
import proofs.«180889_j19164144075028_1_alg».proof.Proof.Gen.KernelIdeal.Skeleton
import proofs.«180889_j19164144075028_1_alg».proof.Proof.Gen.KernelIdeal.Launch
import proofs.«180889_j19164144075028_1_alg».proof.Proof.Gen.KernelIdeal.Points
import proofs.«180889_j19164144075028_1_alg».proof.Proof.Gen.KernelIdeal.Frame
import proofs.«180889_j19164144075028_1_alg».proof.Proof.Gen.ReferenceIdeal
import proofs.«180889_j19164144075028_1_alg».proof.Proof.Gen.Pre_finite_inputs
import proofs.«180889_j19164144075028_1_alg».proof.Proof.Gen.KernelIdeal.Value
import proofs.«180889_j19164144075028_1_alg».proof.Proof.Gen.ReferenceIdeal.Run
import proofs.«180889_j19164144075028_1_alg».proof.Proof.Gen.ReferenceIdeal.Read
import proofs.«180889_j19164144075028_1_alg».proof.Proof.ArrayValue
import proofs.«180889_j19164144075028_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs to the end and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference has no kernel: its run, with the result dropped, is its frame. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing of the kernel was rewritten when it was read on the extended reals. -/
theorem preserves : Cert.preserves_Kernel_KernelIdeal := trivial

/-- From arguments that agree, the kernel's result array ends at the layer of X and W (the 32 bands, each the
    block product) and the reference's at the same function (its one product read at an index). -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.ref_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
